-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x288x64516 : Shape := ⟨3, ![8, 288, 64516]⟩
abbrev S_ : Shape := ⟨0, ![]⟩

class Facts : Prop where
  bcast_S_S8x288x64516 : S_.BroadcastsInDim S8x288x64516 (![] : Fin 0 → Fin S8x288x64516.rank)
  reducesTo_S8x288x64516_S_d0_1_2 : S8x288x64516.ReducesTo [0, 1, 2] S_
  h_S_ : 0 < S_.numel

variable [Facts]

def fn {F : FTy → Type} [FloatOps F] (main_arg0 : FVec F S8x288x64516 .f32) : IVec S_ 1 :=
  let main_v0 : FVec F S8x288x64516 .f32 := Host.absf main_arg0
  let main_cst : FVec F S_ .f32 := constant S_ .f32 0x7F800000#32
  let main_v1 : FVec F S8x288x64516 .f32 := broadcastInDim S8x288x64516 ![] bcast_S_S8x288x64516 main_cst
  let main_v2 : IVec S8x288x64516 1 := cmpf .olt main_v0 main_v1
  let main_c : IVec S_ 1 := constantI S_ 1 1#1
  let main_v3 : IVec S_ 1 := (fun x v => Host.reduce IntOp.andi x v reducesTo_S8x288x64516_S_d0_1_2 h_S_) main_v2 main_c
  main_v3
-- ==== Kernel.lean ====
abbrev S8x288x64516 : Shape := ⟨3, ![8, 288, 64516]⟩
abbrev S8x32x9x254x254 : Shape := ⟨5, ![8, 32, 9, 254, 254]⟩
abbrev S8x32x256x256 : Shape := ⟨4, ![8, 32, 256, 256]⟩
abbrev S1x4x9x254x254 : Shape := ⟨5, ![1, 4, 9, 254, 254]⟩
abbrev S1x4x256x256 : Shape := ⟨4, ![1, 4, 256, 256]⟩
abbrev S4x256x256 : Shape := ⟨3, ![4, 256, 256]⟩
abbrev S1x4x1x254x254 : Shape := ⟨5, ![1, 4, 1, 254, 254]⟩
abbrev S4x254x254 : Shape := ⟨3, ![4, 254, 254]⟩

abbrev nBuf : Space → Nat
  | .hbm => 3
  | .vmem => 5
  | .smem => 0
  | _ => 0

abbrev bufTy : (tb : Table) → Fin (tcTables nBuf tb) → BufTy
  | .hbm, ⟨0, _⟩ => ⟨S8x288x64516, .f32⟩
  | .hbm, ⟨1, _⟩ => ⟨S8x32x9x254x254, .f32⟩
  | .hbm, ⟨2, _⟩ => ⟨S8x32x256x256, .f32⟩
  | .local _ .vmem, ⟨0, _⟩ => ⟨S1x4x9x254x254, .f32⟩
  | .local _ .vmem, ⟨1, _⟩ => ⟨S1x4x9x254x254, .f32⟩
  | .local _ .vmem, ⟨2, _⟩ => ⟨S1x4x256x256, .f32⟩
  | .local _ .vmem, ⟨3, _⟩ => ⟨S1x4x256x256, .f32⟩
  | .local _ .vmem, ⟨4, _⟩ => ⟨S4x256x256, .f32⟩
  | _, _ => ⟨S8x288x64516, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x9x254x254 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x288x64516_S8x32x9x254x254 : S8x288x64516.ShapeCasts S8x32x9x254x254
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  inb_S1x4x9x254x254_S1x4x1x254x254_0_0_0_0_0 : ∀ a, (![0, 0, 0, 0, 0] : Fin 5 → Nat) a + S1x4x1x254x254.size a ≤ S1x4x9x254x254.size a
  h_S1x4x1x254x254 : 0 < S1x4x1x254x254.numel
  shapeCasts_S1x4x1x254x254_S4x254x254 : S1x4x1x254x254.ShapeCasts S4x254x254
  inb_S4x256x256_S4x254x254_0_0_0 : ∀ a, (![0, 0, 0] : Fin 3 → Nat) a + S4x254x254.size a ≤ S4x256x256.size a
  h_S4x254x254 : 0 < S4x254x254.numel
  shapeCasts_S4x254x254_S4x254x254 : S4x254x254.ShapeCasts S4x254x254
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1x4x256x256 : S4x256x256.ShapeCasts S1x4x256x256
  inb_S1x4x9x254x254_S1x4x1x254x254_0_0_1_0_0 : ∀ a, (![0, 0, 1, 0, 0] : Fin 5 → Nat) a + S1x4x1x254x254.size a ≤ S1x4x9x254x254.size a
  rotates_S4x256x256_d2 : S4x256x256.Rotates 2 none
  inb_S1x4x9x254x254_S1x4x1x254x254_0_0_2_0_0 : ∀ a, (![0, 0, 2, 0, 0] : Fin 5 → Nat) a + S1x4x1x254x254.size a ≤ S1x4x9x254x254.size a
  inb_S1x4x9x254x254_S1x4x1x254x254_0_0_3_0_0 : ∀ a, (![0, 0, 3, 0, 0] : Fin 5 → Nat) a + S1x4x1x254x254.size a ≤ S1x4x9x254x254.size a
  rotates_S4x256x256_d1 : S4x256x256.Rotates 1 none
  inb_S1x4x9x254x254_S1x4x1x254x254_0_0_4_0_0 : ∀ a, (![0, 0, 4, 0, 0] : Fin 5 → Nat) a + S1x4x1x254x254.size a ≤ S1x4x9x254x254.size a
  inb_S1x4x9x254x254_S1x4x1x254x254_0_0_5_0_0 : ∀ a, (![0, 0, 5, 0, 0] : Fin 5 → Nat) a + S1x4x1x254x254.size a ≤ S1x4x9x254x254.size a
  inb_S1x4x9x254x254_S1x4x1x254x254_0_0_6_0_0 : ∀ a, (![0, 0, 6, 0, 0] : Fin 5 → Nat) a + S1x4x1x254x254.size a ≤ S1x4x9x254x254.size a
  inb_S1x4x9x254x254_S1x4x1x254x254_0_0_7_0_0 : ∀ a, (![0, 0, 7, 0, 0] : Fin 5 → Nat) a + S1x4x1x254x254.size a ≤ S1x4x9x254x254.size a
  inb_S1x4x9x254x254_S1x4x1x254x254_0_0_8_0_0 : ∀ a, (![0, 0, 8, 0, 0] : Fin 5 → Nat) a + S1x4x1x254x254.size a ≤ S1x4x9x254x254.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x9x254x254.size a ≤ S8x32x9x254x254.size a
  hwx0_0 : ∀ i : grid0.Coords, EltTy.bits .f32 = 32 ∨ (Rect.block (s := S8x32x9x254x254) S1x4x9x254x254.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S8x32x256x256.size a
  hwx0_1 : ∀ i : grid0.Coords, EltTy.bits .f32 = 32 ∨ (Rect.block (s := S8x32x256x256) S1x4x256x256.size (cc0_transform_1 i) (hinb0_1 i)).WholeWords (EltTy.packing .f32)

variable [Facts₀]

abbrev win0_0 : Pipeline.Window sig grid0 :=
  Pipeline.Window.ofSpec (Memref.whole main_v0) S1x4x9x254x254.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x288x64516 : Shape := ⟨3, ![8, 288, 64516]⟩
abbrev S254 : Shape := ⟨1, ![254]⟩
abbrev S_ : Shape := ⟨0, ![]⟩
abbrev S3 : Shape := ⟨1, ![3]⟩
abbrev S3x1 : Shape := ⟨2, ![3, 1]⟩
abbrev S1x254 : Shape := ⟨2, ![1, 254]⟩
abbrev S3x254 : Shape := ⟨2, ![3, 254]⟩
abbrev S3x1x254x1 : Shape := ⟨4, ![3, 1, 254, 1]⟩
abbrev S1x3x1x254 : Shape := ⟨4, ![1, 3, 1, 254]⟩
abbrev S3x3x254x254 : Shape := ⟨4, ![3, 3, 254, 254]⟩
abbrev S580644 : Shape := ⟨1, ![580644]⟩
abbrev S8x32x580644 : Shape := ⟨3, ![8, 32, 580644]⟩
abbrev S8x32x65536 : Shape := ⟨3, ![8, 32, 65536]⟩
abbrev S580644x1 : Shape := ⟨2, ![580644, 1]⟩
abbrev S8x32x256x256 : Shape := ⟨4, ![8, 32, 256, 256]⟩

abbrev nBuf : Space → Nat
  | .hbm => 55
  | .vmem => 0
  | .smem => 0
  | _ => 0

abbrev bufTy : (tb : Table) → Fin (tcTables nBuf tb) → BufTy
  | .hbm, ⟨0, _⟩ => ⟨S8x288x64516, .f32⟩
  | .hbm, ⟨1, _⟩ => ⟨S254, .i32⟩
  | .hbm, ⟨2, _⟩ => ⟨S_, .i32⟩
  | .hbm, ⟨3, _⟩ => ⟨S254, .i32⟩
  | .hbm, ⟨4, _⟩ => ⟨S254, .i32⟩
  | .hbm, ⟨5, _⟩ => ⟨S_, .i32⟩
  | .hbm, ⟨6, _⟩ => ⟨S254, .i32⟩
  | .hbm, ⟨7, _⟩ => ⟨S254, .i32⟩
  | .hbm, ⟨8, _⟩ => ⟨S3, .i32⟩
  | .hbm, ⟨9, _⟩ => ⟨S_, .i32⟩
  | .hbm, ⟨10, _⟩ => ⟨S3, .i32⟩
  | .hbm, ⟨11, _⟩ => ⟨S3, .i32⟩
  | .hbm, ⟨12, _⟩ => ⟨S3x1, .i32⟩
  | .hbm, ⟨13, _⟩ => ⟨S1x254, .i32⟩
  | .hbm, ⟨14, _⟩ => ⟨S3x254, .i32⟩
  | .hbm, ⟨15, _⟩ => ⟨S3x254, .i32⟩
  | .hbm, ⟨16, _⟩ => ⟨S3x254, .i32⟩
  | .hbm, ⟨17, _⟩ => ⟨S254, .i32⟩
  | .hbm, ⟨18, _⟩ => ⟨S_, .i32⟩
  | .hbm, ⟨19, _⟩ => ⟨S254, .i32⟩
  | .hbm, ⟨20, _⟩ => ⟨S254, .i32⟩
  | .hbm, ⟨21, _⟩ => ⟨S_, .i32⟩
  | .hbm, ⟨22, _⟩ => ⟨S254, .i32⟩
  | .hbm, ⟨23, _⟩ => ⟨S254, .i32⟩
  | .hbm, ⟨24, _⟩ => ⟨S3, .i32⟩
  | .hbm, ⟨25, _⟩ => ⟨S_, .i32⟩
  | .hbm, ⟨26, _⟩ => ⟨S3, .i32⟩
  | .hbm, ⟨27, _⟩ => ⟨S3, .i32⟩
  | .hbm, ⟨28, _⟩ => ⟨S3x1, .i32⟩
  | .hbm, ⟨29, _⟩ => ⟨S1x254, .i32⟩
  | .hbm, ⟨30, _⟩ => ⟨S3x254, .i32⟩
  | .hbm, ⟨31, _⟩ => ⟨S3x254, .i32⟩
  | .hbm, ⟨32, _⟩ => ⟨S3x254, .i32⟩
  | .hbm, ⟨33, _⟩ => ⟨S3x1x254x1, .i32⟩
  | .hbm, ⟨34, _⟩ => ⟨S_, .i32⟩
  | .hbm, ⟨35, _⟩ => ⟨S3x1x254x1, .i32⟩
  | .hbm, ⟨36, _⟩ => ⟨S3x1x254x1, .i32⟩
  | .hbm, ⟨37, _⟩ => ⟨S1x3x1x254, .i32⟩
  | .hbm, ⟨38, _⟩ => ⟨S3x3x254x254, .i32⟩
  | .hbm, ⟨39, _⟩ => ⟨S3x3x254x254, .i32⟩
  | .hbm, ⟨40, _⟩ => ⟨S3x3x254x254, .i32⟩
  | .hbm, ⟨41, _⟩ => ⟨S580644, .i32⟩
  | .hbm, ⟨42, _⟩ => ⟨S8x32x580644, .f32⟩
  | .hbm, ⟨43, _⟩ => ⟨S_, .f32⟩
  | .hbm, ⟨44, _⟩ => ⟨S8x32x65536, .f32⟩
  | .hbm, ⟨45, _⟩ => ⟨S_, .i32⟩
  | .hbm, ⟨46, _⟩ => ⟨S580644, .i32⟩
  | .hbm, ⟨47, _⟩ => ⟨S580644, .i1⟩
  | .hbm, ⟨48, _⟩ => ⟨S_, .i32⟩
  | .hbm, ⟨49, _⟩ => ⟨S580644, .i32⟩
  | .hbm, ⟨50, _⟩ => ⟨S580644, .i32⟩
  | .hbm, ⟨51, _⟩ => ⟨S580644, .i32⟩
  | .hbm, ⟨52, _⟩ => ⟨S580644x1, .i32⟩
  | .hbm, ⟨53, _⟩ => ⟨S8x32x65536, .f32⟩
  | .hbm, ⟨54, _⟩ => ⟨S8x32x256x256, .f32⟩
  | _, _ => ⟨S8x288x64516, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_5 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_v35 : Ref sig .tc := ⟨.hbm, 44, rfl⟩
abbrev main_c_6 : Ref sig .tc := ⟨.hbm, 45, rfl⟩
abbrev main_v36 : Ref sig .tc := ⟨.hbm, 46, rfl⟩
abbrev main_v37 : Ref sig .tc := ⟨.hbm, 47, rfl⟩
abbrev main_c_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S_S254 : S_.BroadcastsInDim S254 (![] : Fin 0 → Fin S254.rank)
  bcast_S_S3 : S_.BroadcastsInDim S3 (![] : Fin 0 → Fin S3.rank)
  bcast_S3_S3x1_0 : S3.BroadcastsInDim S3x1 (![0] : Fin 1 → Fin S3x1.rank)
  bcast_S254_S1x254_1 : S254.BroadcastsInDim S1x254 (![1] : Fin 1 → Fin S1x254.rank)
  bcast_S1x254_S3x254_0_1 : S1x254.BroadcastsInDim S3x254 (![0, 1] : Fin 2 → Fin S3x254.rank)
  bcast_S3x1_S3x254_0_1 : S3x1.BroadcastsInDim S3x254 (![0, 1] : Fin 2 → Fin S3x254.rank)
  bcast_S3x254_S3x1x254x1_0_2 : S3x254.BroadcastsInDim S3x1x254x1 (![0, 2] : Fin 2 → Fin S3x1x254x1.rank)
  bcast_S_S3x1x254x1 : S_.BroadcastsInDim S3x1x254x1 (![] : Fin 0 → Fin S3x1x254x1.rank)
  bcast_S3x254_S1x3x1x254_1_3 : S3x254.BroadcastsInDim S1x3x1x254 (![1, 3] : Fin 2 → Fin S1x3x1x254.rank)
  bcast_S3x1x254x1_S3x3x254x254_0_1_2_3 : S3x1x254x1.BroadcastsInDim S3x3x254x254 (![0, 1, 2, 3] : Fin 4 → Fin S3x3x254x254.rank)
  bcast_S1x3x1x254_S3x3x254x254_0_1_2_3 : S1x3x1x254.BroadcastsInDim S3x3x254x254 (![0, 1, 2, 3] : Fin 4 → Fin S3x3x254x254.rank)
  shapeCasts_S3x3x254x254_S580644 : S3x3x254x254.ShapeCasts S580644
  shapeCasts_S8x288x64516_S8x32x580644 : S8x288x64516.ShapeCasts S8x32x580644
  bcast_S_S8x32x65536 : S_.BroadcastsInDim S8x32x65536 (![] : Fin 0 → Fin S8x32x65536.rank)
  bcast_S_S580644 : S_.BroadcastsInDim S580644 (![] : Fin 0 → Fin S580644.rank)
  bcast_S580644_S580644x1_0 : S580644.BroadcastsInDim S580644x1 (![0] : Fin 1 → Fin S580644x1.rank)
  shapeCasts_S8x32x65536_S8x32x256x256 : S8x32x65536.ShapeCasts S8x32x256x256
  scatter_S8x32x65536_S580644x1_S8x32x580644_01_2_2_1_wf : ScatterDims.WF S8x32x65536 S580644x1 S8x32x580644 [0, 1] [2] [2] 1

variable [Facts₀]

def scatter_S8x32x65536_S580644x1_S8x32x580644_01_2_2_1 : ScatterDims S8x32x65536 S580644x1 S8x32x580644 where
  updateWindowDims := [0, 1]
  insertedWindowDims := [2]
  scatterDimsToOperandDims := [2]
  indexVectorDim := 1
  wf := scatter_S8x32x65536_S580644x1_S8x32x580644_01_2_2_1_wf

class Facts : Prop extends Facts₀ where

variable [Facts]
-- ==== Proof.KernelBody.lean ====
/-
  What one grid point of the kernel leaves in its output block, as ONE value of the point's input block.

  The body zero-fills a 4 × 256 × 256 scratch and then, for each of the nine patch offsets k in turn, stores slice k
  of the input block (4 × 254 × 254) into the scratch's top-left corner, reads the whole scratch back, rotates it
  by (k / 3, k % 3) along its last two axes and adds it into the output block (the first offset is stored as it is).
  Two facts about stores read back are used: a store through the corner rectangle hides every earlier store through
  the same rectangle, and over the zero fill it leaves the slice in the corner and zero in the two border strips
  (`padded`). With them the list of stores the run found collapses to `bodyOut`: the nine padded slices, rotated
  and added in order.
-/
import proofs.«173692_j14559939133583_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

/-! ## Stores through the scratch's corner, read back -/

section ReadBack

variable {sig' : RefSig} {κ : Kind} {sp : Space} {Val : EltTy → Type} [∀ e, Nonempty (Val e)]
variable (v : View sig' κ sp (⟨3, ![4, 256, 256]⟩ : Shape) .f32)

/-- The corner value `p` inside the 254 × 254 corner, `z` in the two border strips. -/
def padded (p : (⟨3, ![4, 254, 254]⟩ : Shape).Idx → Val .f32) (z : (⟨3, ![4, 256, 256]⟩ : Shape).Idx → Val .f32) :
    (⟨3, ![4, 256, 256]⟩ : Shape).Idx → Val .f32 :=
  fun y => if h : (y 1).val < 254 ∧ (y 2).val < 254 then
      p (ix3 (⟨(y 0).val, (y 0).isLt⟩ : Fin 4) (⟨(y 1).val, h.1⟩ : Fin 254) (⟨(y 2).val, h.2⟩ : Fin 254))
    else z y

/-- Inside the corner the newest corner store is read. -/
theorem read_corner_hit (f : v.ty.Contents Val) (inb : ∀ a, (![0, 0, 0] : Fin 3 → Nat) a + (![4, 254, 254] : Fin 3 → Nat) a ≤ (⟨3, ![4, 256, 256]⟩ : Shape).size a)
    (p : (Rect.unit (s := ⟨3, ![4, 256, 256]⟩) ![0, 0, 0] ![4, 254, 254] inb).shape.Idx → Val .f32)
    (L : List (View.Piece Val (⟨3, ![4, 256, 256]⟩ : Shape) .f32)) (y : (⟨3, ![4, 256, 256]⟩ : Shape).Idx)
    (h : (y 1).val < 254 ∧ (y 2).val < 254) :
    v.read Val (v.writes Val f (⟨Rect.unit ![0, 0, 0] ![4, 254, 254] inb, p⟩ :: L)) y
      = p (ix3 (⟨(y 0).val, (y 0).isLt⟩ : Fin 4) (⟨(y 1).val, h.1⟩ : Fin 254) (⟨(y 2).val, h.2⟩ : Fin 254)) :=
  View.read_writes_cons_unit_of_mem v f inb p L y _ rfl (fun a => by
    match a with
    | ⟨0, _⟩ => exact (Nat.zero_add _).symm
    | ⟨1, _⟩ => exact (Nat.zero_add _).symm
    | ⟨2, _⟩ => exact (Nat.zero_add _).symm)

/-- Outside the corner a corner store is not seen. -/
theorem read_corner_miss (f : v.ty.Contents Val) (inb : ∀ a, (![0, 0, 0] : Fin 3 → Nat) a + (![4, 254, 254] : Fin 3 → Nat) a ≤ (⟨3, ![4, 256, 256]⟩ : Shape).size a)
    (p : (Rect.unit (s := ⟨3, ![4, 256, 256]⟩) ![0, 0, 0] ![4, 254, 254] inb).shape.Idx → Val .f32)
    (L : List (View.Piece Val (⟨3, ![4, 256, 256]⟩ : Shape) .f32)) (y : (⟨3, ![4, 256, 256]⟩ : Shape).Idx)
    (h : ¬((y 1).val < 254 ∧ (y 2).val < 254)) :
    v.read Val (v.writes Val f (⟨Rect.unit ![0, 0, 0] ![4, 254, 254] inb, p⟩ :: L)) y
      = v.read Val (v.writes Val f L) y := by
  by_cases h1 : (y 1).val < 254
  · have h2 : ¬(y 2).val < 254 := fun h2 => h ⟨h1, h2⟩
    exact View.read_writes_cons_unit_of_not_mem v f inb p L y rfl 2 (Or.inr (by
      show 0 + 254 ≤ (y 2).val; omega))
  · exact View.read_writes_cons_unit_of_not_mem v f inb p L y rfl 1 (Or.inr (by
      show 0 + 254 ≤ (y 1).val; omega))

/-- A store through the whole scratch is read everywhere. -/
theorem read_whole (f : v.ty.Contents Val) (inb : ∀ a, (![0, 0, 0] : Fin 3 → Nat) a + (![4, 256, 256] : Fin 3 → Nat) a ≤ (⟨3, ![4, 256, 256]⟩ : Shape).size a)
    (z : (Rect.unit (s := ⟨3, ![4, 256, 256]⟩) ![0, 0, 0] ![4, 256, 256] inb).shape.Idx → Val .f32)
    (L : List (View.Piece Val (⟨3, ![4, 256, 256]⟩ : Shape) .f32)) (y : (⟨3, ![4, 256, 256]⟩ : Shape).Idx) :
    v.read Val (v.writes Val f (⟨Rect.unit ![0, 0, 0] ![4, 256, 256] inb, z⟩ :: L)) y = z y :=
  View.read_writes_cons_unit_of_mem v f inb z L y y rfl (fun a => by
    match a with
    | ⟨0, _⟩ => exact (Nat.zero_add _).symm
    | ⟨1, _⟩ => exact (Nat.zero_add _).symm
    | ⟨2, _⟩ => exact (Nat.zero_add _).symm)

/-- A corner store hides the corner store before it, whatever box is loaded afterwards. -/
theorem readCov_corner_cons (inb : ∀ a, (![0, 0, 0] : Fin 3 → Nat) a + (![4, 254, 254] : Fin 3 → Nat) a ≤ (⟨3, ![4, 256, 256]⟩ : Shape).size a)
    (p q : (Rect.unit (s := ⟨3, ![4, 256, 256]⟩) ![0, 0, 0] ![4, 254, 254] inb).shape.Idx → Val .f32)
    (L : List (View.Piece Val (⟨3, ![4, 256, 256]⟩ : Shape) .f32)) (B : LoadRect (⟨3, ![4, 256, 256]⟩ : Shape)) :
    v.readCov (⟨Rect.unit ![0, 0, 0] ![4, 254, 254] inb, p⟩ :: ⟨Rect.unit ![0, 0, 0] ![4, 254, 254] inb, q⟩ :: L) B
      = v.readCov (⟨Rect.unit ![0, 0, 0] ![4, 254, 254] inb, p⟩ :: L) B := by
  funext j
  unfold View.readCov
  rw [View.readAt_apply, View.readAt_apply]
  by_cases h : ((B.idx j) 1).val < 254 ∧ ((B.idx j) 2).val < 254
  · rw [read_corner_hit v _ inb p _ _ h, read_corner_hit v _ inb p _ _ h]
  · rw [read_corner_miss v _ inb p _ _ h, read_corner_miss v _ inb q _ _ h, read_corner_miss v _ inb p _ _ h]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One corner store over a fill of the whole scratch, the whole scratch loaded: the corner value padded by the fill. -/
theorem readCov_corner_fill (inbI : ∀ a, (![0, 0, 0] : Fin 3 → Nat) a + (![4, 254, 254] : Fin 3 → Nat) a ≤ (⟨3, ![4, 256, 256]⟩ : Shape).size a)
    (inbW : ∀ a, (![0, 0, 0] : Fin 3 → Nat) a + (![4, 256, 256] : Fin 3 → Nat) a ≤ (⟨3, ![4, 256, 256]⟩ : Shape).size a)
    (p : (Rect.unit (s := ⟨3, ![4, 256, 256]⟩) ![0, 0, 0] ![4, 254, 254] inbI).shape.Idx → Val .f32)
    (z : (Rect.unit (s := ⟨3, ![4, 256, 256]⟩) ![0, 0, 0] ![4, 256, 256] inbW).shape.Idx → Val .f32) :
    v.readCov [⟨Rect.unit ![0, 0, 0] ![4, 254, 254] inbI, p⟩, ⟨Rect.unit ![0, 0, 0] ![4, 256, 256] inbW, z⟩]
        (Rect.unit ![0, 0, 0] ![4, 256, 256] inbW).toLoadRect
      = padded p z := by
  funext j
  unfold View.readCov
  rw [View.readAt_apply]
  have hj : (Rect.unit (s := ⟨3, ![4, 256, 256]⟩) ![0, 0, 0] ![4, 256, 256] inbW).toLoadRect.idx j = j := by
    funext a; apply Fin.ext
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega
  rw [hj]
  unfold padded
  by_cases h : (j 1).val < 254 ∧ (j 2).val < 254
  · rw [read_corner_hit v _ inbI p _ _ h, dif_pos h]
  · rw [read_corner_miss v _ inbI p _ _ h, read_whole v _ inbW z _ _, dif_neg h]

end ReadBack

/-! ## The body's value -/

/-- Slice `k` of the input block (its third axis at `k`), as a 4 × 254 × 254 array. -/
def slice (x0 : Vec F S1x4x9x254x254 .f32) (k : Nat)
    (inb : ∀ a, (![0, 0, k, 0, 0] : Fin 5 → Nat) a + S1x4x1x254x254.size a ≤ S1x4x9x254x254.size a) : FVec F S4x254x254 .f32 :=
  k0_pay4 (View.ld x0 (Rect.unit (s := S1x4x9x254x254) ![0, 0, k, 0, 0] S1x4x1x254x254.size inb))

/-- The scratch after slice `k` is stored over the zero fill: the slice in the corner, zero in the border strips. -/
def scr (x0 : Vec F S1x4x9x254x254 .f32) (k : Nat)
    (inb : ∀ a, (![0, 0, k, 0, 0] : Fin 5 → Nat) a + S1x4x1x254x254.size a ≤ S1x4x9x254x254.size a) : Vec F S4x256x256 .f32 :=
  padded (slice x0 k inb) (k0_pay3 (F := F))

/-- What the body leaves in the output block: the nine padded slices, each rotated by its offset, added in order. -/
def bodyOut (x0 : Vec F S1x4x9x254x254 .f32) : Vec F S1x4x256x256 .f32 :=
  k0_pay2 (scr x0 8 inb_S1x4x9x254x254_S1x4x1x254x254_0_0_8_0_0)
    (k0_pay21 (scr x0 7 inb_S1x4x9x254x254_S1x4x1x254x254_0_0_7_0_0)
      (k0_pay19 (k0_pay18 (scr x0 6 inb_S1x4x9x254x254_S1x4x1x254x254_0_0_6_0_0))
        (k0_pay16 (scr x0 5 inb_S1x4x9x254x254_S1x4x1x254x254_0_0_5_0_0)
          (k0_pay14 (scr x0 4 inb_S1x4x9x254x254_S1x4x1x254x254_0_0_4_0_0)
            (k0_pay12 (scr x0 3 inb_S1x4x9x254x254_S1x4x1x254x254_0_0_3_0_0)
              (k0_pay10 (scr x0 2 inb_S1x4x9x254x254_S1x4x1x254x254_0_0_2_0_0)
                (k0_pay8 (k0_pay7 (scr x0 1 inb_S1x4x9x254x254_S1x4x1x254x254_0_0_1_0_0))
                  (k0_pay5 (scr x0 0 inb_S1x4x9x254x254_S1x4x1x254x254_0_0_0_0_0)))))))))

/-- THE RUN'S STORES, READ BACK, ARE `bodyOut` of the input block. -/
theorem out_eq (c : Dev nD) (i : grid0.Coords) (arg2 : Memref sig .tc .vmem S1x4x9x254x254 .f32) (harg2 : arg2.IsWhole)
    (arg3 : Memref sig .tc .vmem S1x4x256x256 .f32) (harg3 : arg3.IsWhole)
    (arg4 : Memref sig .tc .vmem S4x256x256 .f32) (harg4 : arg4.IsWhole) (x0 : Vec F S1x4x9x254x254 .f32) :
    out0_A_1 c i arg2 harg2 arg3 harg3 arg4 harg4 x0 = bodyOut x0 := by
  unfold out0_A_1
  rw [View.read_writes_eq_canon _ _ _ (cover0_A_1 c i arg2 harg2 arg3 harg3 arg4 harg4 x0)]
  unfold kernelRun0_A
  dsimp only
  sl_unfold_words
  rw [View.canon_cons_unit_zero hz4]
  simp only [readCov_corner_cons, readCov_corner_fill, View.readCov_cons_toLoadRect, View.readAt_eq_ld, harg2.read_unread]
  rfl

end Cert.KernelIdeal.Body

end
-- ==== Proof.FoldSpec.lean ====
/-
  The fold (col2im) of a stack of 3 × 3 patches at stride 1 with no padding, as one function of the argument array.

  The argument x has shape 8 × 288 × 64516: a batch of 8, then 32 channels times the 9 patch offsets (the channel
  major, the offset k = 3·kh + kw minor), then the 254 × 254 patch positions (the row major). The result has shape
  8 × 32 × 256 × 256, and

      G x (b, c, h, w) = Σ over the offsets k of  x (b, 9·c + k, 254·(h − kh) + (w − kw)),

  the sum taken over those of the nine offsets (kh, kw) = (k / 3, k % 3) for which (h − kh, w − kw) is a patch position,
  that is 0 ≤ h − kh < 254 and 0 ≤ w − kw < 254. An offset that does not reach (h, w) contributes 0.
-/
import Idealize.ShloMosaic.PureOps.Ideal
import Idealize.ShloMosaic.Lib.ValueIdx
import Mathlib.Algebra.BigOperators.Fin

noncomputable section

open scoped BigOperators

namespace Cert.Fold

open Idealize.ShloMosaic Idealize.ShloMosaic.ValueIdx

/-- Offset `k` = 3·kh + kw reaches row `h`, column `w`: (h − kh, w − kw) is one of the 254 × 254 patch positions. -/
def Hits (k h w : Nat) : Prop := k / 3 ≤ h ∧ h - k / 3 < 254 ∧ k % 3 ≤ w ∧ w - k % 3 < 254

instance (k h w : Nat) : Decidable (Hits k h w) := by unfold Hits; infer_instance

/-- The flat patch position of a reached entry is one of the 64516. -/
theorem Hits.lt {k h w : Nat} (hc : Hits k h w) : 254 * (h - k / 3) + (w - k % 3) < 64516 := by
  obtain ⟨_, h2, _, h4⟩ := hc; omega

/-- What offset `k` contributes to entry (b, c, h, w). -/
def tap (x : (⟨3, ![8, 288, 64516]⟩ : Shape).Idx → EReal) (b : Fin 8) (c : Fin 32) (h w : Fin 256) (k : Fin 9) : EReal :=
  if hc : Hits k.val h.val w.val then
    x (ix3 b (⟨9 * c.val + k.val, by omega⟩ : Fin 288)
      (⟨254 * (h.val - k.val / 3) + (w.val - k.val % 3), hc.lt⟩ : Fin 64516))
  else 0

/-- The fold: every entry is the sum of what the nine offsets contribute. -/
def G (x : (⟨3, ![8, 288, 64516]⟩ : Shape).Idx → EReal) : (⟨4, ![8, 32, 256, 256]⟩ : Shape).Idx → EReal :=
  fun i => ∑ k : Fin 9, tap x (i 0) (i 1) (i 2) (i 3) k

theorem G_apply (x : (⟨3, ![8, 288, 64516]⟩ : Shape).Idx → EReal) (b : Fin 8) (c : Fin 32) (h w : Fin 256) :
    G x (ix4 b c h w) = ∑ k : Fin 9, tap x b c h w k := rfl

/-- A sum over nine terms, written out from the first to the last. -/
theorem sum_fin9 {M : Type*} [AddCommMonoid M] (f : Fin 9 → M) :
    ∑ k : Fin 9, f k = f 0 + f 1 + f 2 + f 3 + f 4 + f 5 + f 6 + f 7 + f 8 := by
  rw [Fin.sum_univ_castSucc, Fin.sum_univ_eight]
  rfl

end Cert.Fold

end
-- ==== Proof.KernelTaps.lean ====
/-
  The body's value at the ideal instance, read at one entry of the output block.

  Entry (cc, h, w) of `bodyOut x0` is the sum over the nine offsets k of what offset k contributes: the padded
  slice k read at ((h − k / 3) mod 256, (w − k % 3) mod 256). Since k / 3 and k % 3 are at most 2 and the padding
  occupies rows and columns 254 and 255, that index lies in the corner exactly when (h − k / 3, w − k % 3) is a patch
  position — the rotation wraps only zeros around — and then the entry read is x0 (cc, k, h − k / 3, w − k % 3).
-/
import proofs.«173692_j14559939133583_2_alg».proof.Proof.KernelBody
import proofs.«173692_j14559939133583_2_alg».proof.Proof.FoldSpec
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Taps

open Cert.KernelIdeal Cert.KernelIdeal.Gen Cert.KernelIdeal.Body Cert.Fold

/-- What offset `k` contributes to entry (cc, h, w) of the output block, from the input block. -/
def tapB (x0 : Vec Ideal S1x4x9x254x254 .f32) (cc : Fin 4) (h w : Fin 256) (k : Fin 9) : EReal :=
  if hc : Hits k.val h.val w.val then
    x0 (ix5 (0 : Fin 1) cc k (⟨h.val - k.val / 3, hc.2.1⟩ : Fin 254) (⟨w.val - k.val % 3, hc.2.2.2⟩ : Fin 254))
  else 0

/-! ## A slice, the zero fill and the padded scratch at an index -/

/-- Slice `k` at (cc, oh, ow) is the input block at (0, cc, k, oh, ow). -/
theorem slice_apply {F : FTy → Type} [FloatOps F] (x0 : Vec F S1x4x9x254x254 .f32) (k : Nat) (hk : k < 9)
    (inb : ∀ a, (![0, 0, k, 0, 0] : Fin 5 → Nat) a + S1x4x1x254x254.size a ≤ S1x4x9x254x254.size a)
    (cc : Fin 4) (oh ow : Fin 254) :
    slice x0 k inb (ix3 cc oh ow) = x0 (ix5 (0 : Fin 1) cc (⟨k, hk⟩ : Fin 9) oh ow) := by
  unfold slice k0_pay4
  rw [shapeCast_self]
  refine (shapeCast_apply _ shapeCasts_S1x4x1x254x254_S4x254x254 (ix3 cc oh ow)
    (ix5 (0 : Fin 1) cc (0 : Fin 1) oh ow) ?_).trans ?_
  · rw [Shape.rowMajor_val_five, Shape.rowMajor_val_three]
    show ((((0 * 4 + cc.val) * 1 + 0) * 254 + oh.val) * 254 + ow.val) = (cc.val * 254 + oh.val) * 254 + ow.val
    omega
  · refine congrArg x0 (funext fun a => Fin.ext ?_)
    match a with
    | ⟨0, _⟩ => show 0 + 1 * 0 = 0; rfl
    | ⟨1, _⟩ => show 0 + 1 * cc.val = cc.val; omega
    | ⟨2, _⟩ => show k + 1 * 0 = k; omega
    | ⟨3, _⟩ => show 0 + 1 * oh.val = oh.val; omega
    | ⟨4, _⟩ => show 0 + 1 * ow.val = ow.val; omega

/-- The zero fill is zero everywhere. -/
theorem zero_apply (y : S4x256x256.Idx) : (k0_pay3 (F := Ideal)) y = 0 := by
  unfold k0_pay3
  rw [shapeCast_self]
  exact Ideal.ofBits_zero_f32

/-- THE PADDED SLICE AT A ROTATED INDEX: read at ((h − k/3) mod 256, (w − k%3) mod 256) it is offset `k`'s
    contribution to (h, w). -/
theorem scr_at (x0 : Vec Ideal S1x4x9x254x254 .f32) (k : Nat) (hk : k < 9)
    (inb : ∀ a, (![0, 0, k, 0, 0] : Fin 5 → Nat) a + S1x4x1x254x254.size a ≤ S1x4x9x254x254.size a)
    (cc : Fin 4) (h w h' w' : Fin 256)
    (hh : h'.val = (h.val + 256 - k / 3) % 256) (hw : w'.val = (w.val + 256 - k % 3) % 256) :
    scr x0 k inb (ix3 cc h' w') = tapB x0 cc h w ⟨k, hk⟩ := by
  have hh256 : h.val < 256 := h.isLt
  have hw256 : w.val < 256 := w.isLt
  unfold scr padded tapB
  by_cases hc : Hits k h.val w.val
  · obtain ⟨c1, c2, c3, c4⟩ := hc
    have e1 : h'.val = h.val - k / 3 := by omega
    have e2 : w'.val = w.val - k % 3 := by omega
    have hin : ((ix3 cc h' w') 1).val < 254 ∧ ((ix3 cc h' w') 2).val < 254 := by
      refine ⟨?_, ?_⟩
      · show h'.val < 254; omega
      · show w'.val < 254; omega
    rw [dif_pos hin, dif_pos (show Hits (⟨k, hk⟩ : Fin 9).val h.val w.val from ⟨c1, c2, c3, c4⟩)]
    refine (slice_apply x0 k hk inb _ _ _).trans ?_
    refine congrArg x0 (funext fun a => Fin.ext ?_)
    match a with
    | ⟨0, _⟩ => rfl
    | ⟨1, _⟩ => rfl
    | ⟨2, _⟩ => rfl
    | ⟨3, _⟩ => exact e1
    | ⟨4, _⟩ => exact e2
  · have hout : ¬(((ix3 cc h' w') 1).val < 254 ∧ ((ix3 cc h' w') 2).val < 254) := by
      rintro ⟨a1, a2⟩
      have a1' : h'.val < 254 := a1
      have a2' : w'.val < 254 := a2
      apply hc
      unfold Hits
      omega
    rw [dif_neg hout, dif_neg (show ¬Hits (⟨k, hk⟩ : Fin 9).val h.val w.val from hc)]
    exact zero_apply _

/-! ## Rotations and the adding steps at an index -/

/-- A rotation by `a` along the rows reads row (h − a) mod 256. -/
theorem rot1_apply {α : Type} (n : BitVec 32) (a : Nat) (hn : n.toNat % 256 = a) (v : S4x256x256.Idx → α)
    (hr : S4x256x256.Rotates 1 none) (cc : Fin 4) (h w h' : Fin 256) (hh : h'.val = (h.val + 256 - a) % 256) :
    dynamicRotate 1 n none v hr (ix3 cc h w) = v (ix3 cc h' w) :=
  dynamicRotate_apply 1 n v hr (ix3 cc h w) (ix3 cc h' w) (fun b => by
    match b with
    | ⟨0, _⟩ => rfl
    | ⟨1, _⟩ =>
      show h'.val = if (1 : Fin 3) = 1 then (h.val + 256 - n.toNat % 256) % 256 else h.val
      rw [if_pos rfl, hn]; exact hh
    | ⟨2, _⟩ => rfl)

/-- A rotation by `a` along the columns reads column (w − a) mod 256. -/
theorem rot2_apply {α : Type} (n : BitVec 32) (a : Nat) (hn : n.toNat % 256 = a) (v : S4x256x256.Idx → α)
    (hr : S4x256x256.Rotates 2 none) (cc : Fin 4) (h w w' : Fin 256) (hw : w'.val = (w.val + 256 - a) % 256) :
    dynamicRotate 2 n none v hr (ix3 cc h w) = v (ix3 cc h w') :=
  dynamicRotate_apply 2 n v hr (ix3 cc h w) (ix3 cc h w') (fun b => by
    match b with
    | ⟨0, _⟩ => rfl
    | ⟨1, _⟩ => rfl
    | ⟨2, _⟩ =>
      show w'.val = if (2 : Fin 3) = 2 then (w.val + 256 - n.toNat % 256) % 256 else w.val
      rw [if_pos rfl, hn]; exact hw)

/-- The first offset's step: the scratch stored as the output block. -/
theorem first_apply (v : FVec Ideal S4x256x256 .f32) (cc : Fin 4) (h w : Fin 256) :
    shapeCast S1x4x256x256 v shapeCasts_S4x256x256_S1x4x256x256 (ix4 (0 : Fin 1) cc h w) = v (ix3 cc h w) :=
  shapeCast_apply v shapeCasts_S4x256x256_S1x4x256x256 (ix4 (0 : Fin 1) cc h w) (ix3 cc h w) (by
    rw [Shape.rowMajor_val_three, Shape.rowMajor_val_four]
    show (cc.val * 256 + h.val) * 256 + w.val = ((0 * 4 + cc.val) * 256 + h.val) * 256 + w.val
    omega)

/-- A later offset's step: the output block so far plus the rotated scratch, entry by entry. -/
theorem step_apply (acc : FVec Ideal S1x4x256x256 .f32) (v : FVec Ideal S4x256x256 .f32) (cc : Fin 4) (h w : Fin 256) :
    shapeCast S1x4x256x256 (addf (F := Ideal) (φ := .f32) (shapeCast S4x256x256 acc shapeCasts_S1x4x256x256_S4x256x256) v)
        shapeCasts_S4x256x256_S1x4x256x256 (ix4 (0 : Fin 1) cc h w)
      = acc (ix4 (0 : Fin 1) cc h w) + v (ix3 cc h w) := by
  refine (first_apply _ cc h w).trans ?_
  rw [addf_apply]
  refine congrArg (· + v (ix3 cc h w)) ?_
  exact shapeCast_apply acc shapeCasts_S1x4x256x256_S4x256x256 (ix3 cc h w) (ix4 (0 : Fin 1) cc h w) (by
    rw [Shape.rowMajor_val_four, Shape.rowMajor_val_three]
    show ((0 * 4 + cc.val) * 256 + h.val) * 256 + w.val = (cc.val * 256 + h.val) * 256 + w.val
    omega)

/-! ## Each offset's rotated scratch is its contribution -/

section Offsets
variable (x0 : Vec Ideal S1x4x9x254x254 .f32) (k : Nat) (hk : k < 9)
  (inb : ∀ a, (![0, 0, k, 0, 0] : Fin 5 → Nat) a + S1x4x1x254x254.size a ≤ S1x4x9x254x254.size a)
  (cc : Fin 4) (h w : Fin 256)

theorem plain_scr (h1 : k / 3 = 0) (h2 : k % 3 = 0) : scr x0 k inb (ix3 cc h w) = tapB x0 cc h w ⟨k, hk⟩ :=
  scr_at x0 k hk inb cc h w h w (by have := h.isLt; omega) (by have := w.isLt; omega)

theorem rot2_scr (n2 : BitVec 32) (hr2 : S4x256x256.Rotates 2 none) (h1 : k / 3 = 0) (h2 : n2.toNat % 256 = k % 3) :
    dynamicRotate 2 n2 none (scr x0 k inb) hr2 (ix3 cc h w) = tapB x0 cc h w ⟨k, hk⟩ :=
  (rot2_apply n2 (k % 3) h2 _ hr2 cc h w ⟨(w.val + 256 - k % 3) % 256, Nat.mod_lt _ (by decide)⟩ rfl).trans
    (scr_at x0 k hk inb cc h w h _ (by have := h.isLt; omega) rfl)

theorem rot1_scr (n1 : BitVec 32) (hr1 : S4x256x256.Rotates 1 none) (h1 : n1.toNat % 256 = k / 3) (h2 : k % 3 = 0) :
    dynamicRotate 1 n1 none (scr x0 k inb) hr1 (ix3 cc h w) = tapB x0 cc h w ⟨k, hk⟩ :=
  (rot1_apply n1 (k / 3) h1 _ hr1 cc h w ⟨(h.val + 256 - k / 3) % 256, Nat.mod_lt _ (by decide)⟩ rfl).trans
    (scr_at x0 k hk inb cc h w _ w rfl (by have := w.isLt; omega))

theorem rot12_scr (n1 n2 : BitVec 32) (hr1 : S4x256x256.Rotates 1 none) (hr2 : S4x256x256.Rotates 2 none)
    (h1 : n1.toNat % 256 = k / 3) (h2 : n2.toNat % 256 = k % 3) :
    dynamicRotate 2 n2 none (dynamicRotate 1 n1 none (scr x0 k inb) hr1) hr2 (ix3 cc h w) = tapB x0 cc h w ⟨k, hk⟩ :=
  (rot2_apply n2 (k % 3) h2 _ hr2 cc h w ⟨(w.val + 256 - k % 3) % 256, Nat.mod_lt _ (by decide)⟩ rfl).trans
    ((rot1_apply n1 (k / 3) h1 _ hr1 cc h _ ⟨(h.val + 256 - k / 3) % 256, Nat.mod_lt _ (by decide)⟩ rfl).trans
      (scr_at x0 k hk inb cc h w _ _ rfl rfl))

end Offsets

/-! ## The output block, entry by entry -/

/-- ENTRY (cc, h, w) OF THE BODY'S VALUE is the sum of the nine offsets' contributions. -/
theorem bodyOut_apply (x0 : Vec Ideal S1x4x9x254x254 .f32) (cc : Fin 4) (h w : Fin 256) :
    bodyOut x0 (ix4 (0 : Fin 1) cc h w) = ∑ k : Fin 9, tapB x0 cc h w k := by
  rw [sum_fin9]
  unfold bodyOut k0_pay2 k0_pay21 k0_pay19 k0_pay18 k0_pay16 k0_pay14 k0_pay12 k0_pay10 k0_pay8 k0_pay7 k0_pay5
  dsimp only
  rw [step_apply, step_apply, step_apply, step_apply, step_apply, step_apply, step_apply, step_apply, first_apply]
  rw [plain_scr x0 0 (by decide) _ cc h w rfl rfl,
    rot2_scr x0 1 (by decide) _ cc h w 1#32 _ rfl rfl,
    rot2_scr x0 2 (by decide) _ cc h w 2#32 _ rfl rfl,
    rot1_scr x0 3 (by decide) _ cc h w 1#32 _ rfl rfl,
    rot12_scr x0 4 (by decide) _ cc h w 1#32 1#32 _ _ rfl rfl,
    rot12_scr x0 5 (by decide) _ cc h w 1#32 2#32 _ _ rfl rfl,
    rot1_scr x0 6 (by decide) _ cc h w 2#32 _ rfl rfl,
    rot12_scr x0 7 (by decide) _ cc h w 2#32 1#32 _ _ rfl rfl,
    rot12_scr x0 8 (by decide) _ cc h w 2#32 2#32 _ _ rfl rfl]
  rfl

end Cert.KernelIdeal.Taps

end
-- ==== Proof.KernelValue.lean ====
/-
  The kernel's result array after the run is the fold `G` of the argument array.

  The array the kernel reads is the argument reshaped to 8 × 32 × 9 × 254 × 254: its entry (b, c, k, oh, ow) is the
  argument's entry (b, 9·c + k, 254·oh + ow). Grid point t = (b, ct) reads the block of channels 4·ct … 4·ct + 3 of batch
  b and writes back the block of the same batch and channels of the result; entry (cc, h, w) of what it writes is the
  sum of the nine offsets' contributions (`bodyOut_apply`), and each contribution, read through the reshape, is the
  fold's (`tap`). The 64 blocks tile the result, so the result is `G` of the argument everywhere.
-/
import proofs.«173692_j14559939133583_2_alg».proof.Proof.KernelTaps
import proofs.«173692_j14559939133583_2_alg».proof.Proof.Gen.KernelIdeal.Value
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FoldValue

open Cert.KernelIdeal Cert.KernelIdeal.Gen Cert.KernelIdeal.Body Cert.KernelIdeal.Taps Cert.Fold

variable (m : (ℓ : Loc nD τ sig) → Buf (Elt Ideal) ℓ) (ρ : Dev nD → PrngReg)

/-! ## One entry of a block, against the fold -/

/-- If the input block `x0` is the block of batch `b`, channels 4·ct … 4·ct + 3 of the reshaped argument `x`, then the
    body's value at a block entry is the fold of `x` at the array entry of the same batch, channel, row and column. -/
theorem block_entry (x : (⟨3, ![8, 288, 64516]⟩ : Shape).Idx → EReal) (x0 : Vec Ideal S1x4x9x254x254 .f32)
    (b ct : Nat) (hb : b < 8) (hct : ct < 8)
    (hx0 : ∀ (cc : Fin 4) (k : Fin 9) (oh ow : Fin 254),
      x0 (ix5 (0 : Fin 1) cc k oh ow)
        = x (ix3 (⟨b, hb⟩ : Fin 8) (⟨9 * (4 * ct + cc.val) + k.val, by omega⟩ : Fin 288)
            (⟨254 * oh.val + ow.val, by omega⟩ : Fin 64516)))
    (y : (⟨4, ![1, 4, 256, 256]⟩ : Shape).Idx) (i : (⟨4, ![8, 32, 256, 256]⟩ : Shape).Idx)
    (h0 : (i 0).val = b) (h1 : (i 1).val = 4 * ct + (y 1).val) (h2 : (i 2).val = (y 2).val) (h3 : (i 3).val = (y 3).val) :
    bodyOut x0 y = G x i := by
  have hy : y = ix4 (0 : Fin 1) (y 1 : Fin 4) (y 2 : Fin 256) (y 3 : Fin 256) := by
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl
  obtain ⟨cc, h, w, rfl⟩ : ∃ (cc : Fin 4) (h w : Fin 256), y = ix4 (0 : Fin 1) cc h w := ⟨y 1, y 2, y 3, hy⟩
  obtain ⟨b', c', h', w', rfl⟩ : ∃ (b' : Fin 8) (c' : Fin 32) (h' w' : Fin 256), i = ix4 b' c' h' w' :=
    ⟨i 0, i 1, i 2, i 3, eq_ix4 i⟩
  have g0 : b'.val = b := h0
  have g1 : c'.val = 4 * ct + cc.val := h1
  have g2 : h'.val = h.val := h2
  have g3 : w'.val = w.val := h3
  obtain rfl : h' = h := Fin.ext g2
  obtain rfl : w' = w := Fin.ext g3
  rw [bodyOut_apply, G_apply]
  refine Finset.sum_congr rfl fun k _ => ?_
  unfold tapB tap
  by_cases hh : Hits k.val h'.val w'.val
  · rw [dif_pos hh, dif_pos hh, hx0]
    refine congrArg x (funext fun a => Fin.ext ?_)
    match a with
    | ⟨0, _⟩ => exact g0.symm
    | ⟨1, _⟩ => show 9 * (4 * ct + cc.val) + k.val = 9 * c'.val + k.val; rw [g1]
    | ⟨2, _⟩ => rfl
  · rw [dif_neg hh, dif_neg hh]

/-! ## The array the kernel reads -/

/-- The reshaped argument at an index is the argument at the index with the same row-major position. -/
theorem x5_at (c : Dev nD) (i5 : S8x32x9x254x254.Idx) (i3 : S8x288x64516.Idx)
    (e0 : (i3 0).val = (i5 0).val) (e1 : (i3 1).val = 9 * (i5 1).val + (i5 2).val)
    (e2 : (i3 2).val = 254 * (i5 3).val + (i5 4).val) :
    V m c main_v0 i5 = m ((c : Thread nD τ).loc main_arg0) i3 := by
  have e : (V m c main_v0 : S8x32x9x254x254.Idx → EReal)
      = shapeCast S8x32x9x254x254 (m ((c : Thread nD τ).loc main_arg0)) shapeCasts_S8x288x64516_S8x32x9x254x254 := by
    dsimp only [Gen.V, Gen.hostOps0]; after_results; rfl
  rw [e]
  refine shapeCast_apply _ _ i5 i3 ?_
  rw [Shape.rowMajor_val_three, Shape.rowMajor_val_five]
  have b0 : (i5 0).val < 8 := (i5 0).isLt
  have b1 : (i5 1).val < 32 := (i5 1).isLt
  have b2 : (i5 2).val < 9 := (i5 2).isLt
  have b3 : (i5 3).val < 254 := (i5 3).isLt
  have b4 : (i5 4).val < 254 := (i5 4).isLt
  show ((i3 0).val * 288 + (i3 1).val) * 64516 + (i3 2).val
    = ((((i5 0).val * 32 + (i5 1).val) * 9 + (i5 2).val) * 254 + (i5 3).val) * 254 + (i5 4).val
  rw [e0, e1, e2]
  omega

/-! ## The index maps over the grid -/

/-- The two windows move together: same batch, same channel tile, and their other block indices are 0. -/
theorem idx_facts : ∀ t : Fin cfg0.N, win0_0.index t (0 : Fin 5) = win0_1.index t (0 : Fin 4)
    ∧ win0_0.index t (1 : Fin 5) = win0_1.index t (1 : Fin 4)
    ∧ win0_0.index t (2 : Fin 5) = 0 ∧ win0_0.index t (3 : Fin 5) = 0 ∧ win0_0.index t (4 : Fin 5) = 0
    ∧ win0_1.index t (2 : Fin 4) = 0 ∧ win0_1.index t (3 : Fin 4) = 0
    ∧ win0_1.index t (0 : Fin 4) < 8 ∧ win0_1.index t (1 : Fin 4) < 8 :=
  (by decide +kernel : ∀ t : Fin grid0.N, _)

/-- Every (batch, channel tile) is some point's. -/
theorem idx_onto : ∀ (q0 : Fin 8) (q1 : Fin 8), ∃ t : Fin cfg0.N, win0_1.index t = ![q0.val, q1.val, 0, 0] :=
  (by decide +kernel : ∀ (q0 : Fin 8) (q1 : Fin 8), ∃ t : Fin grid0.N, win0_1.index t = ![q0.val, q1.val, 0, 0])

/-! ## What a point writes back, and the array after the run -/

/-- The result as contents of the result array. -/
abbrev result (c : Dev nD) : Buf (Elt Ideal) ((c : Thread nD τ).loc main_v1) :=
  G (m ((c : Thread nD τ).loc main_arg0))

/-- WHAT POINT `t` WRITES BACK is block `t` of the fold of the argument. -/
theorem flushed_eq (c : Dev nD) (t : Fin cfg0.N) :
    (dats m 0 c).flushed 1 t = ((cfg0.win 1).blk t).view.read (Elt Ideal) (result m c) := by
  rw [Cert.KernelIdeal.Value.flushed1_A, out_eq]
  obtain ⟨f0, f1, f2, f3, f4, f5, f6, f7, f8⟩ := idx_facts t
  funext j
  refine block_entry (m ((c : Thread nD τ).loc main_arg0)) (iblk m c 0 t)
    (win0_1.index t (0 : Fin 4)) (win0_1.index t (1 : Fin 4)) f7 f8 ?_ j (((cfg0.win 1).blk t).view.emb j) ?_ ?_ ?_ ?_
  · intro cc k oh ow
    show V m c main_v0 (((cfg0.win 0).blk t).view.emb (ix5 (0 : Fin 1) cc k oh ow)) = _
    refine x5_at m c _ _ ?_ ?_ ?_
    · show win0_1.index t (0 : Fin 4) = win0_0.index t (0 : Fin 5) * 1 + 1 * 0
      omega
    · show 9 * (4 * win0_1.index t (1 : Fin 4) + cc.val) + k.val
        = 9 * (win0_0.index t (1 : Fin 5) * 4 + 1 * cc.val) + (win0_0.index t (2 : Fin 5) * 9 + 1 * k.val)
      omega
    · show 254 * oh.val + ow.val
        = 254 * (win0_0.index t (3 : Fin 5) * 254 + 1 * oh.val) + (win0_0.index t (4 : Fin 5) * 254 + 1 * ow.val)
      omega
  · show win0_1.index t (0 : Fin 4) * 1 + 1 * (j 0).val = win0_1.index t (0 : Fin 4)
    have hj : (j 0).val < 1 := (j 0).isLt
    omega
  · show win0_1.index t (1 : Fin 4) * 4 + 1 * (j 1).val = 4 * win0_1.index t (1 : Fin 4) + (j 1).val
    omega
  · show win0_1.index t (2 : Fin 4) * 256 + 1 * (j 2).val = (j 2).val
    omega
  · show win0_1.index t (3 : Fin 4) * 256 + 1 * (j 3).val = (j 3).val
    omega

/-- An index of the result array is in point `t`'s block iff each coordinate is in the block's range on its axis. -/
theorem mem_blk (t : Fin cfg0.N) (i : S8x32x256x256.Idx) :
    i ∈ ((cfg0.win 1).blk t).view.set ↔ ∀ a : Fin 4, win0_1.index t a * S1x4x256x256.size a ≤ (i a).val
      ∧ (i a).val < win0_1.index t a * S1x4x256x256.size a + S1x4x256x256.size a := by
  show i ∈ ((View.whole main_v1).slice (win0_1.rect t)).set ↔ _
  rw [View.set_slice_whole, Rect.mem_set_unit]
  exact Iff.rfl

/-- The blocks tile the result: the point of batch i 0 and channel tile (i 1) / 4 covers index i. -/
theorem cover (i : S8x32x256x256.Idx) :
    ∃ t : Fin cfg0.N, (cfg0.win 1).flush t = true ∧ i ∈ ((cfg0.win 1).blk t).view.set := by
  have hi0 : (i 0).val < 8 := (i 0).isLt
  have hi1 : (i 1).val < 32 := (i 1).isLt
  have hi2 : (i 2).val < 256 := (i 2).isLt
  have hi3 : (i 3).val < 256 := (i 3).isLt
  obtain ⟨t, ht⟩ := idx_onto ⟨(i 0).val, hi0⟩ ⟨(i 1).val / 4, by omega⟩
  have q0 : win0_1.index t (0 : Fin 4) = (i 0).val := congrFun ht 0
  have q1 : win0_1.index t (1 : Fin 4) = (i 1).val / 4 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 4 ≤ (i 1).val ∧ (i 1).val < win0_1.index t (1 : Fin 4) * 4 + 4
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 256 ≤ (i 3).val ∧ (i 3).val < win0_1.index t (3 : Fin 4) * 256 + 256
    omega

/-- THE RESULT ARRAY AFTER THE RUN is the fold of the argument. -/
theorem final (c : Dev nD) : (dats m 0 c).arrAt 1 cfg0.N = result m c :=
  (dats m 0 c).arrAt_eq_of_cover 1 (result m c) (fun t _ => flushed_eq m c t) cover

/-- The run, read: the result array at the fold of the argument, the argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.FoldValue

end
-- ==== Proof.RefIdx.lean ====
/-
  The scatter positions the reference computes: an integer chain over 32-bit words.

  For e below 580644 = 3·3·254·254, written e = ((kh·3 + kw)·254 + oh)·254 + ow, the chain builds
  (oh + kh)·256 + (ow + kw) out of counters, the constants 1, 0 and 256, products, differences and sums of
  32-bit words; then replaces a negative value v by v + 65536 (none is negative). No step wraps: the value
  stays below 2^31, so the word read as a signed integer is that natural number.
-/
import proofs.«173692_j14559939133583_2_alg».proof.Proof.Gen.ReferenceIdeal.Read
import Idealize.ShloMosaic.Lib.ValueIdx

noncomputable section

namespace Cert.RefIdx

open Idealize.ShloMosaic Idealize.ShloMosaic.ValueIdx
open Cert.ReferenceIdeal Cert.ReferenceIdeal.Gen Cert.ReferenceIdeal.Read

variable {F : FTy → Type} [FloatOps F]

/-- Row part before scaling: position along the rows plus the row offset. -/
theorem v12_val (i : S3x254.Idx) :
    val_main_v12 (F := F) i = BitVec.ofNat 32 ((i 1).val + (i 0).val) := by
  rw [val_main_v12_apply, val_main_v10_apply, val_main_v9_apply, val_main_v4_apply, val_main_v2_apply,
    val_main_v0_apply, val_main_v1_apply, val_main_c_apply, val_main_v3_apply, val_main_c_0_apply,
    val_main_v11_apply, val_main_v8_apply, val_main_v7_apply, val_main_v5_apply, val_main_v6_apply,
    val_main_c_1_apply]
  show IntOp.addi (IntOp.subi (IntOp.muli (BitVec.ofNat 32 (i 1).val) 1#32) 0#32)
      (IntOp.muli (BitVec.ofNat 32 (i 0).val) 1#32) = _
  simp only [IntOp.addi, IntOp.subi, IntOp.muli, BitVec.mul_one, BitVec.sub_zero, BitVec.ofNat_add]

/-- Column part: position along the columns plus the column offset. -/
theorem v25_val (i : S3x254.Idx) :
    val_main_v25 (F := F) i = BitVec.ofNat 32 ((i 1).val + (i 0).val) := by
  rw [val_main_v25_apply, val_main_v23_apply, val_main_v22_apply, val_main_v17_apply, val_main_v15_apply,
    val_main_v13_apply, val_main_v14_apply, val_main_c_2_apply, val_main_v16_apply, val_main_c_3_apply,
    val_main_v24_apply, val_main_v21_apply, val_main_v20_apply, val_main_v18_apply, val_main_v19_apply,
    val_main_c_4_apply]
  show IntOp.addi (IntOp.subi (IntOp.muli (BitVec.ofNat 32 (i 1).val) 1#32) 0#32)
      (IntOp.muli (BitVec.ofNat 32 (i 0).val) 1#32) = _
  simp only [IntOp.addi, IntOp.subi, IntOp.muli, BitVec.mul_one, BitVec.sub_zero, BitVec.ofNat_add]

/-- The position as a word, at (kh, kw, oh, ow). -/
theorem v32_val (i : S3x3x254x254.Idx) :
    val_main_v32 (F := F) i
      = BitVec.ofNat 32 (((i 2).val + (i 0).val) * 256 + ((i 3).val + (i 1).val)) := by
  rw [val_main_v32_apply, val_main_v30_apply, val_main_v28_apply, val_main_v26_apply, v12_val,
    val_main_v27_apply, val_main_c_5_apply, val_main_v31_apply, val_main_v29_apply, v25_val]
  show IntOp.addi (IntOp.muli (BitVec.ofNat 32 ((i 2).val + (i 0).val)) (BitVec.ofNat 32 256))
      (BitVec.ofNat 32 ((i 3).val + (i 1).val)) = _
  simp only [IntOp.addi, IntOp.muli, BitVec.ofNat_add, BitVec.ofNat_mul]

/-- The position of e as a natural number. -/
def pos (e : Nat) : Nat := (e / 254 % 254 + e / 193548) * 256 + (e % 254 + e / 64516 % 3)

theorem pos_lt (e : Nat) (he : e < 580644) : pos e < 65536 := by
  unfold pos; omega

/-- The flat chain at e. -/
theorem v33_val (e : Fin 580644) : val_main_v33 (F := F) (ix1 e) = BitVec.ofNat 32 (pos e.val) := by
  rw [val_main_v33_apply, v32_val]
  rfl

/-- A word below 2^31 read signed is its natural number. -/
theorem toInt_ofNat_small (n : Nat) (h : n < 2147483648) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The wrap of negative positions leaves every position as it is. -/
theorem v40_val (e : Fin 580644) : val_main_v40 (F := F) (ix1 e) = BitVec.ofNat 32 (pos e.val) := by
  rw [val_main_v40_apply, val_main_v37_apply, val_main_v36_apply, val_main_c_6_apply, v33_val]
  have hp := pos_lt e.val e.isLt
  have hlt : ¬ (BitVec.ofNat 32 (pos e.val)).slt 0#32 = true := by
    rw [BitVec.slt, decide_eq_true_eq, toInt_ofNat_small _ (by omega)]
    simp only [BitVec.toInt_zero]
    omega
  have hc : IntOp.cmpi .slt (BitVec.ofNat 32 (pos e.val)) 0#32 = 0#1 := by
    show BitVec.ofBool ((BitVec.ofNat 32 (pos e.val)).slt 0#32) = 0#1
    rw [Bool.eq_false_iff.mpr hlt]
    rfl
  rw [hc, select_zero]

/-- THE POSITION OF e, read signed off the scatter indices. -/
theorem v41_toInt (e : Fin 580644) :
    (val_main_v41 (F := F) (ix2 e (0 : Fin 1))).toInt = (pos e.val : Int) := by
  rw [val_main_v41_apply]
  have hi : idx_main_v41 (ix2 e (0 : Fin 1)) = ix1 e := by
    funext a; match a with | ⟨0, _⟩ => rfl
  rw [hi, v40_val, toInt_ofNat_small _ (by have := pos_lt e.val e.isLt; omega)]

end Cert.RefIdx

end
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.LibLastAxisScatter.lean ====
/-
  A scatter with addition along the last axis of a three-axis array, read at an index.

  The operand is a B × C × P array, the updates a B × C × E array, and the scatter indices name, for each
  e below E, one position along the operand's last axis (read signed, not clamped; a position outside the operand
  is dropped). Update entry (b, c, e) is added into the operand entry (b, c, position of e). Read at (b, c, p),
  the result is the operand's entry plus the sum of the updates' entries (b, c, e) over the e whose position is p.

  General: nothing here mentions a program.
-/
import Idealize.ShloMosaic.PureOps.Ideal
import Idealize.ShloMosaic.Lib.ValueIdx
import proofs.«173692_j14559939133583_2_alg».proof.Proof.LibRowScatter

noncomputable section

open scoped BigOperators

namespace Cert.LibLastAxisScatter

open Idealize.ShloMosaic Idealize.ShloMosaic.ValueIdx Finset

/-! ## Sums over a three-axis index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The dimension numbers -/

/-- Operand B × C × P, scatter indices E × 1, updates B × C × E: the updates' first two axes are the window,
    the operand's last axis is the one indexed. -/
abbrev lastDims (B C P E : Nat)
    (wf : ScatterDims.WF ⟨3, ![B, C, P]⟩ ⟨2, ![E, 1]⟩ ⟨3, ![B, C, E]⟩ [0, 1] [2] [2] 1) :
    ScatterDims ⟨3, ![B, C, P]⟩ ⟨2, ![E, 1]⟩ ⟨3, ![B, C, E]⟩ where
  updateWindowDims := [0, 1]
  insertedWindowDims := [2]
  scatterDimsToOperandDims := [2]
  indexVectorDim := 1
  wf := wf

section Last
variable {B C P E w : Nat}
  (wf : ScatterDims.WF ⟨3, ![B, C, P]⟩ ⟨2, ![E, 1]⟩ ⟨3, ![B, C, E]⟩ [0, 1] [2] [2] 1)

/-- Where the scatter indices hold the position of `e`. -/
abbrev posAt (e : Fin E) : (⟨2, ![E, 1]⟩ : Shape).Idx := ix2 e (0 : Fin 1)

theorem start_zero (b : Fin B) (c : Fin C) (e : Fin E) (idx : IVec ⟨2, ![E, 1]⟩ w) :
    (lastDims B C P E wf).start (ix3 b c e) idx 0 = 0 := by
  unfold ScatterDims.start
  have h : ¬ (0 : Fin 3) ∈ (lastDims B C P E wf).scatterDimsToOperandDims :=
    show ¬ (0 : Fin 3) ∈ ([2] : List (Fin 3)) by decide
  rw [dif_neg h]

theorem start_one (b : Fin B) (c : Fin C) (e : Fin E) (idx : IVec ⟨2, ![E, 1]⟩ w) :
    (lastDims B C P E wf).start (ix3 b c e) idx 1 = 0 := by
  unfold ScatterDims.start
  have h : ¬ (1 : Fin 3) ∈ (lastDims B C P E wf).scatterDimsToOperandDims :=
    show ¬ (1 : Fin 3) ∈ ([2] : List (Fin 3)) by decide
  rw [dif_neg h]

theorem start_two (b : Fin B) (c : Fin C) (e : Fin E) (idx : IVec ⟨2, ![E, 1]⟩ w) :
    (lastDims B C P E wf).start (ix3 b c e) idx 2 = (idx (posAt e)).toInt := by
  unfold ScatterDims.start
  rw [dif_pos (show (2 : Fin 3) ∈ (lastDims B C P E wf).scatterDimsToOperandDims from List.mem_singleton.mpr rfl)]
  have hsi : (lastDims B C P E wf).siIdx (ix3 b c e)
      ⟨List.idxOf (2 : Fin 3) (lastDims B C P E wf).scatterDimsToOperandDims,
        List.idxOf_lt_length_iff.2 (List.mem_singleton.mpr rfl)⟩ = posAt e := by
    funext a; refine Fin.ext ?_
    match a with
    | ⟨0, _⟩ => rfl
    | ⟨1, _⟩ => rfl
  rw [hsi]

theorem window_zero (b : Fin B) (c : Fin C) (e : Fin E) :
    (lastDims B C P E wf).window (ix3 b c e) 0 = b.val := by
  unfold ScatterDims.window
  have h : (0 : Fin 3) ∈ (lastDims B C P E wf).sKept :=
    show (0 : Fin 3) ∈ (List.finRange 3).filter (· ∉ ([2] : List (Fin 3))) by decide
  rw [dif_pos h]
  rfl

theorem window_one (b : Fin B) (c : Fin C) (e : Fin E) :
    (lastDims B C P E wf).window (ix3 b c e) 1 = c.val := by
  unfold ScatterDims.window
  have h : (1 : Fin 3) ∈ (lastDims B C P E wf).sKept :=
    show (1 : Fin 3) ∈ (List.finRange 3).filter (· ∉ ([2] : List (Fin 3))) by decide
  rw [dif_pos h]
  rfl

theorem window_two (b : Fin B) (c : Fin C) (e : Fin E) :
    (lastDims B C P E wf).window (ix3 b c e) 2 = 0 := by
  unfold ScatterDims.window
  have h : ¬ (2 : Fin 3) ∈ (lastDims B C P E wf).sKept :=
    show ¬ (2 : Fin 3) ∈ (List.finRange 3).filter (· ∉ ([2] : List (Fin 3))) by decide
  rw [dif_neg h]

/-- Update entry (b', c', e) lands at (b, c, p) exactly when b' = b, c' = c and the position of e is p. -/
theorem resultIdx?_last (b' : Fin B) (c' : Fin C) (e : Fin E) (idx : IVec ⟨2, ![E, 1]⟩ w)
    (b : Fin B) (c : Fin C) (p : Fin P) :
    (lastDims B C P E wf).resultIdx? (ix3 b' c' e) idx = some (ix3 b c p)
      ↔ b' = b ∧ c' = c ∧ (idx (posAt e)).toInt = (p.val : Int) := by
  rw [Cert.LibRowScatter.resultIdx?_eq_some_iff, Fin.forall_fin_succ, Fin.forall_fin_two]
  show (lastDims B C P E wf).start (ix3 b' c' e) idx 0 + ((lastDims B C P E wf).window (ix3 b' c' e) 0 : Int) = (b.val : Int)
    ∧ (lastDims B C P E wf).start (ix3 b' c' e) idx 1 + ((lastDims B C P E wf).window (ix3 b' c' e) 1 : Int) = (c.val : Int)
    ∧ (lastDims B C P E wf).start (ix3 b' c' e) idx 2 + ((lastDims B C P E wf).window (ix3 b' c' e) 2 : Int) = (p.val : Int) ↔ _
  rw [start_zero, start_one, start_two, window_zero, window_one, window_two]
  constructor
  · rintro ⟨h0, h1, h2⟩
    refine ⟨Fin.ext (by omega), Fin.ext (by omega), by omega⟩
  · rintro ⟨rfl, rfl, h2⟩
    exact ⟨by omega, by omega, by omega⟩

/-- THE SCATTER READ AT (b, c, p): the operand's entry plus the updates' entries (b, c, e) summed over the
    e whose position is p. -/
theorem hostScatterAdd_last_apply (x : (⟨3, ![B, C, P]⟩ : Shape).Idx → EReal) (idx : IVec ⟨2, ![E, 1]⟩ w)
    (upd : (⟨3, ![B, C, E]⟩ : Shape).Idx → EReal) (b : Fin B) (c : Fin C) (p : Fin P) :
    Ideal.hostScatterAdd (lastDims B C P E wf) x idx upd (ix3 b c p)
      = x (ix3 b c p) + ∑ e ∈ univ.filter (fun e : Fin E => (idx (posAt e)).toInt = (p.val : Int)), upd (ix3 b c e) := by
  unfold Ideal.hostScatterAdd
  congr 1
  rw [Finset.sum_filter, sum_idx3, Finset.sum_filter]
  simp only [resultIdx?_last]
  rw [Finset.sum_eq_single b (fun b' _ hb => ?_) (fun hb => absurd (Finset.mem_univ b) hb)]
  · rw [Finset.sum_eq_single c (fun c' _ hc => ?_) (fun hc => absurd (Finset.mem_univ c) hc)]
    · refine Finset.sum_congr rfl fun e _ => ?_
      simp only [true_and]
    · refine Finset.sum_eq_zero fun e _ => ?_
      rw [if_neg (fun h => hc h.2.1)]
  · refine Finset.sum_eq_zero fun c' _ => Finset.sum_eq_zero fun e _ => ?_
    rw [if_neg (fun h => hb h.1)]

end Last

end Cert.LibLastAxisScatter

end
-- ==== Proof.RefSum.lean ====
/-
  The scattered sum, offset by offset.

  An update index e below 580644 = 9 · 64516 carries the patch offset k = e / 64516 and the patch position
  l = e % 64516 = 254·oh + ow; it is sent to canvas position (oh + k/3)·256 + (ow + k%3). The updates sent to
  canvas position 256·h + w are therefore, for each offset k that reaches (h, w), the single one with
  oh = h − k/3 and ow = w − k%3 (ow + k%3 is at most 255, so the row and the column are read off without carry),
  and none for an offset that does not reach it. Grouping the sum by k gives the fold.
-/
import proofs.«173692_j14559939133583_2_alg».proof.Proof.FoldSpec

noncomputable section

open scoped BigOperators

namespace Cert.RefSum

open Idealize.ShloMosaic Idealize.ShloMosaic.ValueIdx Finset

/-- Equal coordinates give equal indices. -/
theorem ix3_congr {n0 n1 n2 : Nat} {a a' : Fin n0} {b b' : Fin n1} {c c' : Fin n2}
    (ha : a = a') (hb : b = b') (hc : c = c') : ix3 a b c = ix3 a' b' c' := by
  subst ha hb hc; rfl

/-- The flat update index 64516·k + 254·oh + ow, taken apart. -/
theorem flat_parts (k oh ow : Nat) (hoh : oh < 254) (how : ow < 254) :
    (64516 * k + (254 * oh + ow)) / 64516 = k ∧ (64516 * k + (254 * oh + ow)) % 64516 = 254 * oh + ow ∧
      (64516 * k + (254 * oh + ow)) / 254 % 254 = oh ∧ (64516 * k + (254 * oh + ow)) % 254 = ow ∧
      (64516 * k + (254 * oh + ow)) / 193548 = k / 3 :=
  ⟨by omega, by omega, by omega, by omega, by omega⟩

/-- An update sent to (h, w) has an offset that reaches (h, w), and is the one at the reached patch position. -/
theorem hit_of_sent (e k h w : Nat) (he : e < 580644) (hw : w < 256) (hk : e / 64516 = k)
    (hs : (e / 254 % 254 + e / 193548) * 256 + (e % 254 + e / 64516 % 3) = 256 * h + w) :
    Cert.Fold.Hits k h w ∧ e = 64516 * k + (254 * (h - k / 3) + (w - k % 3)) := by
  have a1 : e / 254 % 254 = e % 64516 / 254 := by omega
  have a2 : e % 254 = e % 64516 % 254 := by omega
  have a3 : e / 193548 = k / 3 := by omega
  have a4 : e / 64516 % 3 = k % 3 := by rw [hk]
  have a5 : e = 64516 * k + e % 64516 := by omega
  have hl : e % 64516 < 64516 := Nat.mod_lt _ (by decide)
  rw [a1, a2, a3, a4] at hs
  generalize e % 64516 = l at hs a5 hl
  unfold Cert.Fold.Hits
  omega

/-- The update at the reached patch position of offset k is sent to (h, w). -/
theorem sent_of_hit (k h w : Nat) (hc : Cert.Fold.Hits k h w) :
    64516 * k + (254 * (h - k / 3) + (w - k % 3)) < 64516 * k + 64516 ∧
    (64516 * k + (254 * (h - k / 3) + (w - k % 3))) / 64516 = k ∧
    (64516 * k + (254 * (h - k / 3) + (w - k % 3))) % 64516 = 254 * (h - k / 3) + (w - k % 3) ∧
      ((64516 * k + (254 * (h - k / 3) + (w - k % 3))) / 254 % 254
          + (64516 * k + (254 * (h - k / 3) + (w - k % 3))) / 193548) * 256
        + ((64516 * k + (254 * (h - k / 3) + (w - k % 3))) % 254
          + (64516 * k + (254 * (h - k / 3) + (w - k % 3))) / 64516 % 3) = 256 * h + w := by
  obtain ⟨h1, h2, h3, h4⟩ := hc
  obtain ⟨f1, f2, f3, f4, f5⟩ := flat_parts k (h - k / 3) (w - k % 3) h2 h4
  rw [f1, f2, f3, f4, f5]
  refine ⟨by omega, rfl, rfl, by omega⟩

/-- THE SCATTERED SUM IS THE FOLD: the updates sent to canvas position 256·h + w, summed, are the nine taps. -/
theorem sum_sent (x : (⟨3, ![8, 288, 64516]⟩ : Shape).Idx → EReal) (b : Fin 8) (c : Fin 32) (h w : Fin 256) :
    ∑ e ∈ univ.filter (fun e : Fin 580644 =>
          (e.val / 254 % 254 + e.val / 193548) * 256 + (e.val % 254 + e.val / 64516 % 3) = 256 * h.val + w.val),
        x (ix3 b (⟨9 * c.val + e.val / 64516, by omega⟩ : Fin 288) (⟨e.val % 64516, by omega⟩ : Fin 64516))
      = ∑ k : Fin 9, Cert.Fold.tap x b c h w k := by
  rw [← Finset.sum_fiberwise _ (fun e : Fin 580644 => (⟨e.val / 64516, by omega⟩ : Fin 9))]
  refine Finset.sum_congr rfl fun k _ => ?_
  unfold Cert.Fold.tap
  split
  · rename_i hc
    obtain ⟨h1, h2, h3, h4⟩ := sent_of_hit k.val h.val w.val hc
    rw [Finset.sum_eq_single_of_mem
      (⟨64516 * k.val + (254 * (h.val - k.val / 3) + (w.val - k.val % 3)), by omega⟩ : Fin 580644)]
    · exact congrArg x (ix3_congr rfl (Fin.ext (by show 9 * c.val + _ / 64516 = 9 * c.val + k.val; rw [h2]))
        (Fin.ext h3))
    · rw [Finset.mem_filter, Finset.mem_filter]
      exact ⟨⟨Finset.mem_univ _, h4⟩, Fin.ext h2⟩
    · intro e he hne
      rw [Finset.mem_filter, Finset.mem_filter] at he
      exfalso; apply hne
      have hk : e.val / 64516 = k.val := congrArg Fin.val he.2
      exact Fin.ext (hit_of_sent e.val k.val h.val w.val e.isLt w.isLt hk he.1.2).2
  · rename_i hc
    refine Finset.sum_eq_zero fun e he => ?_
    rw [Finset.mem_filter, Finset.mem_filter] at he
    have hk : e.val / 64516 = k.val := congrArg Fin.val he.2
    exact absurd (hit_of_sent e.val k.val h.val w.val e.isLt w.isLt hk he.1.2).1 hc

end Cert.RefSum

end
-- ==== Proof.RefIsFold.lean ====
/-
  The reference's result is the fold.

  The reference scatters, with addition, the 8 × 32 × 580644 array of patch entries into an 8 × 32 × 65536 canvas of
  zeros, update e going to the canvas position the integer chain computes for it, and reshapes the canvas to
  8 × 32 × 256 × 256. Read at (b, c, h, w) this is the sum of the patch entries sent to position 256·h + w, which,
  grouped by patch offset, is the sum of the nine taps.
-/
import proofs.«173692_j14559939133583_2_alg».proof.Proof.Gen.ReferenceIdeal.Read
import proofs.«173692_j14559939133583_2_alg».proof.Proof.FoldSpec
import proofs.«173692_j14559939133583_2_alg».proof.Proof.RefIdx
import proofs.«173692_j14559939133583_2_alg».proof.Proof.LibLastAxisScatter
import proofs.«173692_j14559939133583_2_alg».proof.Proof.RefSum
import Idealize.ShloMosaic.PureOps.Ideal.Laws

noncomputable section

open scoped BigOperators

namespace Cert.RefFold

open Idealize.ShloMosaic Idealize.ShloMosaic.ValueIdx Finset
open Cert.ReferenceIdeal Cert.ReferenceIdeal.Gen Cert.ReferenceIdeal.Read

/-- The last reshape reads the canvas at (b, c, 256·h + w). -/
theorem idx43 (b : Fin 8) (c : Fin 32) (h w : Fin 256) :
    idx_main_v43 (ix4 b c h w) = ix3 b c (⟨256 * h.val + w.val, by omega⟩ : Fin 65536) := by
  funext a
  match a with
  | ⟨0, _⟩ => refine Fin.ext ?_; show (((b.val * 32 + c.val) * 256 + h.val) * 256 + w.val) / 2097152 = b.val; omega
  | ⟨1, _⟩ => refine Fin.ext ?_; show (((b.val * 32 + c.val) * 256 + h.val) * 256 + w.val) / 65536 % 32 = c.val; omega
  | ⟨2, _⟩ => refine Fin.ext ?_; show (((b.val * 32 + c.val) * 256 + h.val) * 256 + w.val) % 65536 = 256 * h.val + w.val; omega

/-- The first reshape: update (b, c, e) is the argument's entry (b, 9·c + e / 64516, e % 64516). -/
theorem idx34 (b : Fin 8) (c : Fin 32) (e : Fin 580644) :
    idx_main_v34 (ix3 b c e)
      = ix3 b (⟨9 * c.val + e.val / 64516, by omega⟩ : Fin 288) (⟨e.val % 64516, by omega⟩ : Fin 64516) := by
  funext a
  match a with
  | ⟨0, _⟩ => refine Fin.ext ?_; show ((b.val * 32 + c.val) * 580644 + e.val) / 18580608 = b.val; omega
  | ⟨1, _⟩ => refine Fin.ext ?_; show ((b.val * 32 + c.val) * 580644 + e.val) / 64516 % 288 = 9 * c.val + e.val / 64516; omega
  | ⟨2, _⟩ => refine Fin.ext ?_; show ((b.val * 32 + c.val) * 580644 + e.val) % 64516 = e.val % 64516; omega

/-- The canvas starts as zeros. -/
theorem v35_zero (i : S8x32x65536.Idx) : val_main_v35 (F := Ideal) i = 0 := by
  rw [val_main_v35_apply, val_main_cst_apply]
  exact Idealize.ShloMosaic.Ideal.ofBits_zero_f32

/-- The scatter stage is the ideal scatter-add at the last-axis dimension numbers (the two spellings of the dimension
    numbers are the same record). -/
theorem v42_unfold (x : (⟨S8x288x64516, .f32⟩ : BufTy).Contents (Elt Ideal)) :
    val_main_v42 (F := Ideal) x
      = Ideal.hostScatterAdd (Cert.LibLastAxisScatter.lastDims 8 32 65536 580644 Facts₀.scatter_S8x32x65536_S580644x1_S8x32x580644_01_2_2_1_wf)
          (val_main_v35 (F := Ideal)) (val_main_v41 (F := Ideal)) (val_main_v34 (F := Ideal) x) := by
  unfold val_main_v42 Host.scatterAdd
  rw [Ideal.hostScatterAdd_def]
  rfl

/-- THE SCATTER READ AT (b, c, p): the sum of the patch entries whose computed position is p. -/
theorem v42_apply (x : (⟨S8x288x64516, .f32⟩ : BufTy).Contents (Elt Ideal)) (b : Fin 8) (c : Fin 32) (p : Fin 65536) :
    val_main_v42 (F := Ideal) x (ix3 b c p)
      = ∑ e ∈ univ.filter (fun e : Fin 580644 => Cert.RefIdx.pos e.val = p.val),
          x (ix3 b (⟨9 * c.val + e.val / 64516, by omega⟩ : Fin 288) (⟨e.val % 64516, by omega⟩ : Fin 64516)) := by
  rw [v42_unfold]
  refine (Cert.LibLastAxisScatter.hostScatterAdd_last_apply (B := 8) (C := 32) (P := 65536) (E := 580644)
    Facts₀.scatter_S8x32x65536_S580644x1_S8x32x580644_01_2_2_1_wf
    (val_main_v35 (F := Ideal)) (val_main_v41 (F := Ideal)) (val_main_v34 (F := Ideal) x) b c p).trans ?_
  rw [v35_zero, zero_add]
  simp only [Cert.RefIdx.v41_toInt, Nat.cast_inj]
  refine Finset.sum_congr rfl fun e _ => ?_
  rw [val_main_v34_apply, idx34]

/-- THE REFERENCE IS THE FOLD. -/
theorem ref_eq (x : (⟨Cert.ReferenceIdeal.S8x288x64516, .f32⟩ : BufTy).Contents (Elt Ideal)) :
    Cert.ReferenceIdeal.Read.val_main_v43 (F := Ideal) x = Cert.Fold.G x := by
  funext i
  obtain ⟨b, c, h, w, rfl⟩ : ∃ (b : Fin 8) (c : Fin 32) (h w : Fin 256), i = ix4 b c h w :=
    ⟨i 0, i 1, i 2, i 3, eq_ix4 i⟩
  rw [val_main_v43_apply, idx43, v42_apply, Cert.Fold.G_apply]
  exact Cert.RefSum.sum_sent x b c h w

end Cert.RefFold

end
-- ==== Proof.lean ====
/-
  The certificate of the fold (col2im) kernel against its scatter-add reference, over the extended reals.

  The kernel walks a grid of 8 batches × 8 channel tiles; at each point it overlap-adds the nine 254 × 254 slices of
  its input block into a 256 × 256 canvas by storing each slice into the corner of a zero-filled scratch, rotating
  the scratch by the slice's offset and adding. The reference scatter-adds every patch entry to the canvas position
  its offset and patch position name. Both are the one function `Cert.Fold.G` of the argument (FoldSpec.lean):

    * the kernel's result array after the run is `G` of the argument (KernelBody.lean: the stores read back;
      KernelTaps.lean: one entry of a block is the sum of the nine offsets' contributions; KernelValue.lean: the
      blocks tile the array);
    * the reference's result is `G` of the argument (RefIdx.lean, LibLastAxisScatter.lean, RefSum.lean, RefIsFold.lean: the
      integer chain of target positions, the scatter read at an index, the sum regrouped by offset).

  The two sums differ only in the order and grouping of their terms, and the kernel's extra terms are zeros, so no
  finiteness of the argument is used. The ideal pass rewrote nothing: `preserves` is `True`. The three frames are the
  generated frame runs.
-/
import proofs.«173692_j14559939133583_2_alg».proof.Defs
import proofs.«173692_j14559939133583_2_alg».proof.Proof.Gen.Kernel
import proofs.«173692_j14559939133583_2_alg».proof.Proof.Gen.Kernel.Skeleton
import proofs.«173692_j14559939133583_2_alg».proof.Proof.Gen.Kernel.Launch
import proofs.«173692_j14559939133583_2_alg».proof.Proof.Gen.Kernel.Points
import proofs.«173692_j14559939133583_2_alg».proof.Proof.Gen.Kernel.Frame
import proofs.«173692_j14559939133583_2_alg».proof.Proof.Gen.KernelIdeal
import proofs.«173692_j14559939133583_2_alg».proof.Proof.Gen.KernelIdeal.Skeleton
import proofs.«173692_j14559939133583_2_alg».proof.Proof.Gen.KernelIdeal.Launch
import proofs.«173692_j14559939133583_2_alg».proof.Proof.Gen.KernelIdeal.Points
import proofs.«173692_j14559939133583_2_alg».proof.Proof.Gen.KernelIdeal.Frame
import proofs.«173692_j14559939133583_2_alg».proof.Proof.Gen.ReferenceIdeal
import proofs.«173692_j14559939133583_2_alg».proof.Proof.Gen.Pre_finite_inputs
import proofs.«173692_j14559939133583_2_alg».proof.Proof.Gen.KernelIdeal.Value
import proofs.«173692_j14559939133583_2_alg».proof.Proof.Gen.ReferenceIdeal.Run
import proofs.«173692_j14559939133583_2_alg».proof.Proof.Gen.ReferenceIdeal.Read
import proofs.«173692_j14559939133583_2_alg».proof.Proof.KernelValue
import proofs.«173692_j14559939133583_2_alg».proof.Proof.RefIsFold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the fold of the argument in their result array: the kernel's blocks tile it, the reference's
    scatter regroups into it; the arguments agree, so the results are equal entry by entry. -/
theorem algebraic : Cert.algebraic_KernelIdeal_ReferenceIdeal := by
  intro m ρ m' ρ' _ hagree
  refine ⟨fun c => Cert.KernelIdeal.FoldValue.result m c, Cert.KernelIdeal.FoldValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v43_eq, Cert.RefFold.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
